-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400x6400 : Shape := ⟨2, ![6400, 6400]⟩
abbrev S6400x128 : Shape := ⟨2, ![6400, 128]⟩
abbrev S128x128 : Shape := ⟨2, ![128, 128]⟩
abbrev S200x200 : Shape := ⟨2, ![200, 200]⟩
abbrev S_ : Shape := ⟨0, ![]⟩

class Facts : Prop where
  bcast_S_S6400x6400 : S_.BroadcastsInDim S6400x6400 (![] : Fin 0 → Fin S6400x6400.rank)
  reducesTo_S6400x6400_S_d0_1 : S6400x6400.ReducesTo [0, 1] S_
  h_S_ : 0 < S_.numel
  bcast_S_S6400x128 : S_.BroadcastsInDim S6400x128 (![] : Fin 0 → Fin S6400x128.rank)
  reducesTo_S6400x128_S_d0_1 : S6400x128.ReducesTo [0, 1] S_
  bcast_S_S128x128 : S_.BroadcastsInDim S128x128 (![] : Fin 0 → Fin S128x128.rank)
  reducesTo_S128x128_S_d0_1 : S128x128.ReducesTo [0, 1] S_
  bcast_S_S200x200 : S_.BroadcastsInDim S200x200 (![] : Fin 0 → Fin S200x200.rank)
  reducesTo_S200x200_S_d0_1 : S200x200.ReducesTo [0, 1] S_

variable [Facts]

def fn_part1 {F : FTy → Type} [FloatOps F] (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  main_v18

def fn {F : FTy → Type} [FloatOps F] (main_arg0 : FVec F S6400x6400 .f32) (main_arg1 : FVec F S6400x128 .f32) (main_arg2 : FVec F S128x128 .f32) (main_arg3 : FVec F S200x200 .f32) : IVec S_ 1 :=
  let main_v0 : FVec F S6400x6400 .f32 := Host.absf main_arg0
  let main_cst : FVec F S_ .f32 := constant S_ .f32 0x7F800000#32
  let main_v1 : FVec F S6400x6400 .f32 := broadcastInDim S6400x6400 ![] bcast_S_S6400x6400 main_cst
  let main_v2 : IVec S6400x6400 1 := cmpf .olt main_v0 main_v1
  let main_c : IVec S_ 1 := constantI S_ 1 1#1
  let main_v3 : IVec S_ 1 := (fun x v => Host.reduce IntOp.andi x v reducesTo_S6400x6400_S_d0_1 h_S_) main_v2 main_c
  let main_v4 : FVec F S6400x128 .f32 := Host.absf main_arg1
  let main_cst_0 : FVec F S_ .f32 := constant S_ .f32 0x7F800000#32
  let main_v5 : FVec F S6400x128 .f32 := broadcastInDim S6400x128 ![] bcast_S_S6400x128 main_cst_0
  let main_v6 : IVec S6400x128 1 := cmpf .olt main_v4 main_v5
  let main_c_1 : IVec S_ 1 := constantI S_ 1 1#1
  let main_v7 : IVec S_ 1 := (fun x v => Host.reduce IntOp.andi x v reducesTo_S6400x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S200x200 .f32 := Host.absf main_arg3
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_v13 main_v16
-- ==== Kernel.lean ====
abbrev S6400x6400 : Shape := ⟨2, ![6400, 6400]⟩
abbrev S6400x128 : Shape := ⟨2, ![6400, 128]⟩
abbrev S128x128 : Shape := ⟨2, ![128, 128]⟩
abbrev S200x200 : Shape := ⟨2, ![200, 200]⟩
abbrev S_ : Shape := ⟨0, ![]⟩
abbrev S32 : Shape := ⟨1, ![32]⟩
abbrev S32x200x32x200 : Shape := ⟨4, ![32, 200, 32, 200]⟩
abbrev S32x1 : Shape := ⟨2, ![32, 1]⟩
abbrev S32x2 : Shape := ⟨2, ![32, 2]⟩
abbrev S32x200x200 : Shape := ⟨3, ![32, 200, 200]⟩
abbrev S1x200x200 : Shape := ⟨3, ![1, 200, 200]⟩
abbrev S200x128 : Shape := ⟨2, ![200, 128]⟩

abbrev nBuf : Space → Nat
  | .hbm => 38
  | .vmem => 8
  | .smem => 0
  | _ => 0

abbrev bufTy : (tb : Table) → Fin (tcTables nBuf tb) → BufTy
  | .hbm, ⟨0, _⟩ => ⟨S6400x6400, .f32⟩
  | .hbm, ⟨1, _⟩ => ⟨S6400x128, .f32⟩
  | .hbm, ⟨2, _⟩ => ⟨S128x128, .f32⟩
  | .hbm, ⟨3, _⟩ => ⟨S200x200, .f32⟩
  | .hbm, ⟨4, _⟩ => ⟨S200x200, .f32⟩
  | .hbm, ⟨5, _⟩ => ⟨S200x200, .f32⟩
  | .hbm, ⟨6, _⟩ => ⟨S_, .f32⟩
  | .hbm, ⟨7, _⟩ => ⟨S200x200, .f32⟩
  | .hbm, ⟨8, _⟩ => ⟨S200x200, .f32⟩
  | .hbm, ⟨9, _⟩ => ⟨S200x200, .i32⟩
  | .hbm, ⟨10, _⟩ => ⟨S200x200, .i32⟩
  | .hbm, ⟨11, _⟩ => ⟨S_, .i32⟩
  | .hbm, ⟨12, _⟩ => ⟨S200x200, .i32⟩
  | .hbm, ⟨13, _⟩ => ⟨S200x200, .i32⟩
  | .hbm, ⟨14, _⟩ => ⟨S200x200, .i1⟩
  | .hbm, ⟨15, _⟩ => ⟨S200x200, .f32⟩
  | .hbm, ⟨16, _⟩ => ⟨S200x200, .f32⟩
  | .hbm, ⟨17, _⟩ => ⟨S32, .i32⟩
  | .hbm, ⟨18, _⟩ => ⟨S32x200x32x200, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x1, .i32⟩
  | .hbm, ⟨35, _⟩ => ⟨S32x2, .i32⟩
  | .hbm, ⟨36, _⟩ => ⟨S32x200x200, .f32⟩
  | .hbm, ⟨37, _⟩ => ⟨S6400x128, .f32⟩
  | .local _ .vmem, ⟨0, _⟩ => ⟨S1x200x200, .f32⟩
  | .local _ .vmem, ⟨1, _⟩ => ⟨S1x200x200, .f32⟩
  | .local _ .vmem, ⟨2, _⟩ => ⟨S200x200, .f32⟩
  | .local _ .vmem, ⟨3, _⟩ => ⟨S200x128, .f32⟩
  | .local _ .vmem, ⟨4, _⟩ => ⟨S200x128, .f32⟩
  | .local _ .vmem, ⟨5, _⟩ => ⟨S128x128, .f32⟩
  | .local _ .vmem, ⟨6, _⟩ => ⟨S200x128, .f32⟩
  | .local _ .vmem, ⟨7, _⟩ => ⟨S200x128, .f32⟩
  | _, _ => ⟨S6400x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x200x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S200x200_S200x200_1_0 : S200x200.Transposes [1, 0] S200x200
  bcast_S_S200x200 : S_.BroadcastsInDim S200x200 (![] : Fin 0 → Fin S200x200.rank)
  shapeCasts_S6400x6400_S32x200x32x200 : S6400x6400.ShapeCasts S32x200x32x200
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  inb_S1x200x200_S1x200x200_0_0_0 : ∀ a, (![0, 0, 0] : Fin 3 → Nat) a + S1x200x200.size a ≤ S1x200x200.size a
  h_S1x200x200 : 0 < S1x200x200.numel
  shapeCasts_S1x200x200_S200x200 : S1x200x200.ShapeCasts S200x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S128x128_S128x128_0_0 : ∀ a, (![0, 0] : Fin 2 → Nat) a + S128x128.size a ≤ S128x128.size a
  h_S128x128 : 0 < S128x128.numel
  gather_S32x200x32x200_S32x2_S32x200x200_12_02_n_n_02_1_12001200_wf : GatherDims.WF S32x200x32x200 S32x2 S32x200x200 [1, 2] [0, 2] [] [0, 2] [] 1 ![1, 200, 1, 200]
  dot_S200x128_S128x128_S200x128_1_0_0_1_n_n_wf : DotDims.WF S200x128 S128x128 S200x128 [1] [0] [0] [1] [] []
  dot_S200x200_S200x128_S200x128_1_0_0_1_n_n_wf : DotDims.WF S200x200 S200x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x200.size a ≤ S32x200x200.size a
  hwx0_0 : ∀ i : grid0.Coords, EltTy.bits .f32 = 32 ∨ (Rect.block (s := S32x200x200) S1x200x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x200.size a ≤ S200x200.size a
  hwx0_1 : ∀ i : grid0.Coords, EltTy.bits .f32 = 32 ∨ (Rect.block (s := S200x200) S200x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S6400x128.size a
  hwx0_2 : ∀ i : grid0.Coords, EltTy.bits .f32 = 32 ∨ (Rect.block (s := S6400x128) S200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S6400x128.size a
  hwx0_4 : ∀ i : grid0.Coords, EltTy.bits .f32 = 32 ∨ (Rect.block (s := S6400x128) S200x128.size (cc0_transform_4 i) (hinb0_4 i)).WholeWords (EltTy.packing .f32)

variable [Facts₀]

def gather_S32x200x32x200_S32x2_S32x200x200_12_02_n_n_02_1_12001200 : GatherDims S32x200x32x200 S32x2 S32x200x200 where
  offsetDims := [1, 2]
  collapsedSliceDims := [0, 2]
  operandBatchingDims := []
  startIndicesBatchingDims := []
  startIndexMap := [0, 2]
  indexVectorDim := 1
  sliceSizes := ![1, 200, 1, 200]
  wf := gather_S32x200x32x200_S32x2_S32x200x200_12_02_n_n_02_1_12001200_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x200_S200x128_S200x128_1_0_0_1_n_n : DotDims S200x200 S200x128 S200x128 where
  lhsContracting := [1]
  rhsContracting := [0]
  lhsNonContracting := [0]
  rhsNonContracting := [1]
  lhsBatch := []
  rhsBatch := []
  wf := dot_S200x200_S200x128_S200x128_1_0_0_1_n_n_wf

abbrev win0_0 : Pipeline.Window sig grid0 :=
  Pipeline.Window.ofSpec (Memref.whole main_v26) S1x200x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S200x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S6400x6400 : Shape := ⟨2, ![6400, 6400]⟩
abbrev S6400x128 : Shape := ⟨2, ![6400, 128]⟩
abbrev S128x128 : Shape := ⟨2, ![128, 128]⟩
abbrev S200x200 : Shape := ⟨2, ![200, 200]⟩
abbrev S_ : Shape := ⟨0, ![]⟩
abbrev S32 : Shape := ⟨1, ![32]⟩
abbrev S32x200x32x200 : Shape := ⟨4, ![32, 200, 32, 200]⟩
abbrev S32x1 : Shape := ⟨2, ![32, 1]⟩
abbrev S32x2 : Shape := ⟨2, ![32, 2]⟩
abbrev S32x200x200 : Shape := ⟨3, ![32, 200, 200]⟩
abbrev S1x200x200 : Shape := ⟨3, ![1, 200, 200]⟩
abbrev S32x200x128 : Shape := ⟨3, ![32, 200, 128]⟩

abbrev nBuf : Space → Nat
  | .hbm => 52
  | .vmem => 0
  | .smem => 0
  | _ => 0

abbrev bufTy : (tb : Table) → Fin (tcTables nBuf tb) → BufTy
  | .hbm, ⟨0, _⟩ => ⟨S6400x6400, .f32⟩
  | .hbm, ⟨1, _⟩ => ⟨S6400x128, .f32⟩
  | .hbm, ⟨2, _⟩ => ⟨S128x128, .f32⟩
  | .hbm, ⟨3, _⟩ => ⟨S200x200, .f32⟩
  | .hbm, ⟨4, _⟩ => ⟨S200x200, .f32⟩
  | .hbm, ⟨5, _⟩ => ⟨S200x200, .f32⟩
  | .hbm, ⟨6, _⟩ => ⟨S_, .f32⟩
  | .hbm, ⟨7, _⟩ => ⟨S200x200, .f32⟩
  | .hbm, ⟨8, _⟩ => ⟨S200x200, .f32⟩
  | .hbm, ⟨9, _⟩ => ⟨S200x200, .i32⟩
  | .hbm, ⟨10, _⟩ => ⟨S200x200, .i32⟩
  | .hbm, ⟨11, _⟩ => ⟨S_, .i32⟩
  | .hbm, ⟨12, _⟩ => ⟨S200x200, .i32⟩
  | .hbm, ⟨13, _⟩ => ⟨S200x200, .i32⟩
  | .hbm, ⟨14, _⟩ => ⟨S200x200, .i1⟩
  | .hbm, ⟨15, _⟩ => ⟨S200x200, .f32⟩
  | .hbm, ⟨16, _⟩ => ⟨S200x200, .f32⟩
  | .hbm, ⟨17, _⟩ => ⟨S32, .i32⟩
  | .hbm, ⟨18, _⟩ => ⟨S32x200x32x200, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x1, .i32⟩
  | .hbm, ⟨35, _⟩ => ⟨S32x2, .i32⟩
  | .hbm, ⟨36, _⟩ => ⟨S32x200x200, .f32⟩
  | .hbm, ⟨37, _⟩ => ⟨S32x200x200, .f32⟩
  | .hbm, ⟨38, _⟩ => ⟨S32x200x200, .f32⟩
  | .hbm, ⟨39, _⟩ => ⟨S_, .f32⟩
  | .hbm, ⟨40, _⟩ => ⟨S32x200x200, .f32⟩
  | .hbm, ⟨41, _⟩ => ⟨S32x200x200, .f32⟩
  | .hbm, ⟨42, _⟩ => ⟨S_, .f32⟩
  | .hbm, ⟨43, _⟩ => ⟨S32x200x200, .f32⟩
  | .hbm, ⟨44, _⟩ => ⟨S32x200x200, .f32⟩
  | .hbm, ⟨45, _⟩ => ⟨S1x200x200, .f32⟩
  | .hbm, ⟨46, _⟩ => ⟨S32x200x200, .f32⟩
  | .hbm, ⟨47, _⟩ => ⟨S32x200x200, .f32⟩
  | .hbm, ⟨48, _⟩ => ⟨S6400x128, .f32⟩
  | .hbm, ⟨49, _⟩ => ⟨S32x200x128, .f32⟩
  | .hbm, ⟨50, _⟩ => ⟨S32x200x128, .f32⟩
  | .hbm, ⟨51, _⟩ => ⟨S6400x128, .f32⟩
  | _, _ => ⟨S6400x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S200x200_S200x200_1_0 : S200x200.Transposes [1, 0] S200x200
  bcast_S_S200x200 : S_.BroadcastsInDim S200x200 (![] : Fin 0 → Fin S200x200.rank)
  shapeCasts_S6400x6400_S32x200x32x200 : S6400x6400.ShapeCasts S32x200x32x200
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S_S32x200x200 : S_.BroadcastsInDim S32x200x200 (![] : Fin 0 → Fin S32x200x200.rank)
  bcast_S200x200_S1x200x200_1_2 : S200x200.BroadcastsInDim S1x200x200 (![1, 2] : Fin 2 → Fin S1x200x200.rank)
  bcast_S1x200x200_S32x200x200_0_1_2 : S1x200x200.BroadcastsInDim S32x200x200 (![0, 1, 2] : Fin 3 → Fin S32x200x200.rank)
  shapeCasts_S6400x128_S32x200x128 : S6400x128.ShapeCasts S32x200x128
  shapeCasts_S32x200x128_S6400x128 : S32x200x128.ShapeCasts S6400x128
  gather_S32x200x32x200_S32x2_S32x200x200_12_02_n_n_02_1_12001200_wf : GatherDims.WF S32x200x32x200 S32x2 S32x200x200 [1, 2] [0, 2] [] [0, 2] [] 1 ![1, 200, 1, 200]
  dot_S6400x128_S128x128_S6400x128_1_0_0_1_n_n_wf : DotDims.WF S6400x128 S128x128 S6400x128 [1] [0] [0] [1] [] []
  dot_S32x200x200_S32x200x128_S32x200x128_2_1_1_2_0_0_wf : DotDims.WF S32x200x200 S32x200x128 S32x200x128 [2] [1] [1] [2] [0] [0]

variable [Facts₀]

def gather_S32x200x32x200_S32x2_S32x200x200_12_02_n_n_02_1_12001200 : GatherDims S32x200x32x200 S32x2 S32x200x200 where
  offsetDims := [1, 2]
  collapsedSliceDims := [0, 2]
  operandBatchingDims := []
  startIndicesBatchingDims := []
  startIndexMap := [0, 2]
  indexVectorDim := 1
  sliceSizes := ![1, 200, 1, 200]
  wf := gather_S32x200x32x200_S32x2_S32x200x200_12_02_n_n_02_1_12001200_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S32x200x200_S32x200x128_S32x200x128_2_1_1_2_0_0 : DotDims S32x200x200 S32x200x128 S32x200x128 where
  lhsContracting := [2]
  rhsContracting := [1]
  lhsNonContracting := [1]
  rhsNonContracting := [2]
  lhsBatch := [0]
  rhsBatch := [0]
  wf := dot_S32x200x200_S32x200x128_S32x200x128_2_1_1_2_0_0_wf

class Facts : Prop extends Facts₀ where

variable [Facts]
-- ==== Proof.GraphConv.lean ====
/-
  The block-diagonal graph convolution, as one function of four arrays.

  The 6400 rows of the node table are 32 graphs of 200 nodes each: row r belongs to graph r / 200 and is its
  node r % 200; node j of graph b is row 200 b + j.  Given the 32 diagonal blocks A of the adjacency matrix
  (A (b, p, j): the edge p → j inside graph b), the edge-weight mask M shared by all graphs, the node features
  X and the weight matrix W, the output entry at (r, f), with b the graph and p the node of row r, is

      ∑ j < 200,  (logistic (A (b, p, j)) · M (p, j))  ·  ∑ k < 128,  X (200 b + j, k) · W (k, f)

  over the extended reals: the gated edge weight of p → j times entry f of node j's transformed features.
  Both programs compute exactly this nested sum (the inner sum is NOT distributed over the outer one), so no
  finiteness of the inputs is needed to identify them.
-/
import Idealize.ShloMosaic.Lib.ValueIdx
import Idealize.ShloMosaic.PureOps.Ideal

noncomputable section

namespace Cert.GraphConv

open Idealize.ShloMosaic Idealize.ShloMosaic.ValueIdx

/-- The graph a row of the node table belongs to. -/
def graphOf (r : Fin 6400) : Fin 32 := ⟨r.val / 200, by have := r.isLt; omega⟩

/-- The row's node number inside its graph. -/
def nodeOf (r : Fin 6400) : Fin 200 := ⟨r.val % 200, by omega⟩

/-- Node j of graph b, as a row of the node table. -/
def rowOf (b : Fin 32) (j : Fin 200) : Fin 6400 := ⟨b.val * 200 + j.val, by have := b.isLt; have := j.isLt; omega⟩

/-- The gated weight of the edge p → j inside graph b: the logistic of the adjacency entry times the mask. -/
def edge (A : FVec Ideal ⟨3, ![32, 200, 200]⟩ .f32) (M : FVec Ideal ⟨2, ![200, 200]⟩ .f32) (b : Fin 32) (p j : Fin 200) : EReal :=
  Ideal.logistic (A (ix3 b p j)) * M (ix2 p j)

/-- Entry f of row r's transformed features, (X W) (r, f). -/
def support (X : FVec Ideal ⟨2, ![6400, 128]⟩ .f32) (W : FVec Ideal ⟨2, ![128, 128]⟩ .f32) (r : Fin 6400) (f : Fin 128) : EReal :=
  ∑ k : Fin 128, X (ix2 r k) * W (ix2 k f)

/-- The output entry at row r and feature f. -/
def convAt (A : FVec Ideal ⟨3, ![32, 200, 200]⟩ .f32) (M : FVec Ideal ⟨2, ![200, 200]⟩ .f32)
    (X : FVec Ideal ⟨2, ![6400, 128]⟩ .f32) (W : FVec Ideal ⟨2, ![128, 128]⟩ .f32) (r : Fin 6400) (f : Fin 128) : EReal :=
  ∑ j : Fin 200, edge A M (graphOf r) (nodeOf r) j * support X W (rowOf (graphOf r) j) f

/-- The whole output array. -/
def conv (A : FVec Ideal ⟨3, ![32, 200, 200]⟩ .f32) (M : FVec Ideal ⟨2, ![200, 200]⟩ .f32)
    (X : FVec Ideal ⟨2, ![6400, 128]⟩ .f32) (W : FVec Ideal ⟨2, ![128, 128]⟩ .f32) : FVec Ideal ⟨2, ![6400, 128]⟩ .f32 :=
  fun i => convAt A M X W (i 0) (i 1)

theorem conv_ix2 (A : FVec Ideal ⟨3, ![32, 200, 200]⟩ .f32) (M : FVec Ideal ⟨2, ![200, 200]⟩ .f32)
    (X : FVec Ideal ⟨2, ![6400, 128]⟩ .f32) (W : FVec Ideal ⟨2, ![128, 128]⟩ .f32) (r : Fin 6400) (f : Fin 128) :
    conv A M X W (ix2 r f) = convAt A M X W r f := rfl

/-- Row 200 t + p is node p of graph t. -/
theorem graphOf_rowOf (t : Fin 32) (p : Fin 200) : graphOf (rowOf t p) = t :=
  Fin.ext (by show (t.val * 200 + p.val) / 200 = t.val; have := p.isLt; omega)

theorem nodeOf_rowOf (t : Fin 32) (p : Fin 200) : nodeOf (rowOf t p) = p :=
  Fin.ext (by show (t.val * 200 + p.val) % 200 = p.val; have := p.isLt; omega)

theorem rowOf_graphOf_nodeOf (r : Fin 6400) : rowOf (graphOf r) (nodeOf r) = r :=
  Fin.ext (by show r.val / 200 * 200 + r.val % 200 = r.val; omega)

end Cert.GraphConv

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KernelBlock.lean ====
/-
  What the kernel body stores for one graph, read at an index.

  At one grid point the body holds the graph's adjacency block x0 : [1, 200, 200], the mask x1 : [200, 200], the
  graph's 200 rows of node features x2 : [200, 128] and the weights x3 : [128, 128].  It forms the gated edge
  weights logistic (x0) · x1, the graph's transformed features x2 x3 on the matrix unit, and their product, again
  on the matrix unit, both into a zero accumulator.  At the ideal values a change of float format is the
  identity and a matrix product into the zero accumulator is the plain sum, so the stored value at (p, q) is

      ∑ j < 200, (logistic (x0 (0, p, j)) · x1 (p, j)) · ∑ k < 128, x2 (j, k) · x3 (k, q).
-/
import proofs.«132887_j39565238731020_2_alg».proof.Proof.Gen.KernelIdeal.Skeleton
import proofs.«132887_j39565238731020_2_alg».proof.Proof.LibPlainDot
import proofs.«132887_j39565238731020_2_alg».proof.Proof.GraphConv
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-- Both matrix products of the body have the plain dimension numbers "rows × contraction times contraction × columns". -/
theorem dot_features : dot_S200x128_S128x128_S200x128_1_0_0_1_n_n = DotDims.plain 200 128 128 := rfl
theorem dot_edges : dot_S200x200_S200x128_S200x128_1_0_0_1_n_n = DotDims.plain 200 200 128 := rfl

/-- The adjacency block with its unit axis dropped reads, at (p, j), the block at (0, p, j). -/
theorem dropUnit_apply (x0 : Vec Ideal S1x200x200 .f32) (h : S1x200x200.ShapeCasts S200x200) (p j : Fin 200) :
    shapeCast S200x200 x0 h (ix2 p j) = x0 (ix3 0 p j) :=
  shapeCast_apply x0 h (ix2 p j) (ix3 0 p j) (by
    rw [Shape.rowMajor_val_three, Shape.rowMajor_val_two]
    show ((0 : Nat) * 200 + p.val) * 200 + j.val = p.val * 200 + j.val
    omega)

/-- The stored value at (p, q). -/
theorem payload_apply (x0 : Vec Ideal S1x200x200 .f32) (x1 : Vec Ideal S200x200 .f32) (x2 : Vec Ideal S200x128 .f32)
    (x3 : Vec Ideal S128x128 .f32) (p : Fin 200) (q : Fin 128) :
    k0_pay1 (F := Ideal) x0 x1 x2 x3 (ix2 p q)
      = ∑ j : Fin 200, (Ideal.logistic (x0 (ix3 0 p j)) * x1 (ix2 p j)) * ∑ k : Fin 128, x2 (ix2 j k) * x3 (ix2 k q) := by
  unfold k0_pay1
  rw [dot_features, dot_edges]
  refine (Cert.Lib.PlainDot.matmul_plain_zero_apply none _ _ p q).trans ?_
  refine Finset.sum_congr rfl fun j _ => ?_
  refine congrArg₂ (fun a b : EReal => a * b) ?_ ?_
  · show Ideal.logistic (shapeCast S200x200 x0 shapeCasts_S1x200x200_S200x200 (ix2 p j))
        * shapeCast S200x200 x1 shapeCasts_S200x200_S200x200 (ix2 p j) = _
    rw [dropUnit_apply, shapeCast_self]
  · exact Cert.Lib.PlainDot.matmul_plain_zero_apply none _ _ j q

/-- One graph's block of the convolution.  If the four loaded blocks are graph t's pieces of the four arrays — the
    adjacency block of graph t, the whole mask, rows 200 t … 200 t + 199 of the node features, the whole weight matrix —
    then the stored value at (p, q) is the convolution at row 200 t + p and feature q: that row is node p of graph t. -/
theorem block_eq (A : FVec Ideal ⟨3, ![32, 200, 200]⟩ .f32) (M : FVec Ideal ⟨2, ![200, 200]⟩ .f32)
    (X : FVec Ideal ⟨2, ![6400, 128]⟩ .f32) (W : FVec Ideal ⟨2, ![128, 128]⟩ .f32) (t : Fin 32)
    (x0 : Vec Ideal S1x200x200 .f32) (x1 : Vec Ideal S200x200 .f32) (x2 : Vec Ideal S200x128 .f32) (x3 : Vec Ideal S128x128 .f32)
    (h0 : ∀ p j : Fin 200, x0 (ix3 0 p j) = A (ix3 t p j))
    (h1 : ∀ p j : Fin 200, x1 (ix2 p j) = M (ix2 p j))
    (h2 : ∀ (j : Fin 200) (k : Fin 128), x2 (ix2 j k) = X (ix2 (Cert.GraphConv.rowOf t j) k))
    (h3 : ∀ k q : Fin 128, x3 (ix2 k q) = W (ix2 k q))
    (p : Fin 200) (q : Fin 128) :
    k0_pay1 (F := Ideal) x0 x1 x2 x3 (ix2 p q) = Cert.GraphConv.conv A M X W (ix2 (Cert.GraphConv.rowOf t p) q) := by
  rw [payload_apply, Cert.GraphConv.conv_ix2]
  unfold Cert.GraphConv.convAt Cert.GraphConv.edge Cert.GraphConv.support
  rw [Cert.GraphConv.graphOf_rowOf, Cert.GraphConv.nodeOf_rowOf]
  refine Finset.sum_congr rfl fun j _ => ?_
  rw [h0, h1]
  refine congrArg (fun s : EReal => Ideal.logistic (A (ix3 t p j)) * M (ix2 p j) * s) ?_
  exact Finset.sum_congr rfl fun k _ => by rw [h2, h3]

end Cert.KernelIdeal.Block

end
-- ==== Proof.KernelArray.lean ====
/-
  The kernel's output array is the block-diagonal graph convolution of the arrays the region finds.

  Grid point t works on graph t.  Its output block is rows 200 t … 200 t + 199 of the [6400, 128] output; its
  input blocks are block t of the gathered adjacency blocks, the whole mask, rows 200 t … 200 t + 199 of the
  node features and the whole weight matrix (the printed index maps, decided over the 32 points).  So what
  point t writes back is the convolution read through its own block, and the 32 blocks cover the output:
  row r lies in the block of point r / 200.
-/
import proofs.«132887_j39565238731020_2_alg».proof.Proof.Gen.KernelIdeal.Value
import proofs.«132887_j39565238731020_2_alg».proof.Proof.KernelBlock
import proofs.«132887_j39565238731020_2_alg».proof.Proof.GraphConv

noncomputable section

namespace Cert.KernelIdeal.Whole

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The graph a grid point works on. -/
def graphAt (t : Fin cfg0.N) : Fin 32 := Fin.cast N_0 t

/-- The printed index maps over the grid: point t takes block t of the adjacency blocks, of the node features and
    of the output, and the one block of the mask and of the weights. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency block at point t is block t of the gathered blocks. -/
theorem adj_block (c : Dev nD) (t : Fin cfg0.N) (p j : Fin 200) :
    (iblk m c 0 t : Vec Ideal S1x200x200 .f32) (ix3 0 p j) = (V m c main_v26 : FVec Ideal ⟨3, ![32, 200, 200]⟩ .f32) (ix3 (graphAt t) p j) := by
  obtain ⟨e0, e1, e2, -⟩ := idx_facts t
  show V m c main_v26 (((cfg0.win 0).blk t).view.emb (ix3 0 p j)) = V m c main_v26 (ix3 (graphAt t) p j)
  refine congrArg (V m c main_v26) (funext fun a => Fin.ext ?_)
  match a with
  | ⟨0, _⟩ => show win0_0.index t (0 : Fin 3) * 1 + 1 * 0 = t.val; omega
  | ⟨1, _⟩ => show win0_0.index t (1 : Fin 3) * 200 + 1 * p.val = p.val; omega
  | ⟨2, _⟩ => show win0_0.index t (2 : Fin 3) * 200 + 1 * j.val = j.val; omega

/-- The mask block at any point is the whole mask. -/
theorem mask_block (c : Dev nD) (t : Fin cfg0.N) (p j : Fin 200) :
    (iblk m c 1 t : Vec Ideal S200x200 .f32) (ix2 p j) = (V m c main_v10 : FVec Ideal ⟨2, ![200, 200]⟩ .f32) (ix2 p j) := by
  obtain ⟨-, -, -, e0, e1, -⟩ := idx_facts t
  show V m c main_v10 (((cfg0.win 1).blk t).view.emb (ix2 p j)) = V m c main_v10 (ix2 p j)
  refine congrArg (V m c main_v10) (funext fun a => Fin.ext ?_)
  match a with
  | ⟨0, _⟩ => show win0_1.index t (0 : Fin 2) * 200 + 1 * p.val = p.val; omega
  | ⟨1, _⟩ => show win0_1.index t (1 : Fin 2) * 200 + 1 * j.val = j.val; omega

/-- The feature block at point t is rows 200 t … 200 t + 199 of the node features. -/
theorem feat_block (c : Dev nD) (t : Fin cfg0.N) (j : Fin 200) (k : Fin 128) :
    (iblk m c 2 t : Vec Ideal S200x128 .f32) (ix2 j k) = (V m c main_arg1 : FVec Ideal ⟨2, ![6400, 128]⟩ .f32) (ix2 (rowOf (graphAt t) j) k) := by
  obtain ⟨-, -, -, -, -, e0, e1, -⟩ := idx_facts t
  show V m c main_arg1 (((cfg0.win 2).blk t).view.emb (ix2 j k)) = V m c main_arg1 (ix2 (rowOf (graphAt t) j) k)
  refine congrArg (V m c main_arg1) (funext fun a => Fin.ext ?_)
  match a with
  | ⟨0, _⟩ => show win0_2.index t (0 : Fin 2) * 200 + 1 * j.val = t.val * 200 + j.val; omega
  | ⟨1, _⟩ => show win0_2.index t (1 : Fin 2) * 128 + 1 * k.val = k.val; omega

/-- The weight block at any point is the whole weight matrix. -/
theorem weight_block (c : Dev nD) (t : Fin cfg0.N) (k q : Fin 128) :
    (iblk m c 3 t : Vec Ideal S128x128 .f32) (ix2 k q) = (V m c main_arg2 : FVec Ideal ⟨2, ![128, 128]⟩ .f32) (ix2 k q) := by
  obtain ⟨-, -, -, -, -, -, -, e0, e1, -⟩ := idx_facts t
  show V m c main_arg2 (((cfg0.win 3).blk t).view.emb (ix2 k q)) = V m c main_arg2 (ix2 k q)
  refine congrArg (V m c main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The convolution of the arrays as the region finds them. -/
abbrev target (c : Dev nD) : FVec Ideal ⟨2, ![6400, 128]⟩ .f32 :=
  conv (V m c main_v26) (V m c main_v10) (V m c main_arg1) (V m c main_arg2)

/-- What point t writes back is its block of the convolution. -/
theorem flushed_eq (c : Dev nD) (t : Fin cfg0.N) :
    (dats m 0 c).flushed 4 t = ((cfg0.win 4).blk t).view.read (Elt Ideal) (target m c) := by
  rw [Cert.KernelIdeal.Value.flushed4]
  unfold out0_4
  rw [View.canon_unit_zero hz2]
  simp only [View.ld_unit_zero (S := S1x200x200) hz3, View.ld_unit_zero (S := S200x200) hz2,
    View.ld_unit_zero (S := S200x128) hz2, View.ld_unit_zero (S := S128x128) hz2]
  funext y
  show k0_pay1 (iblk m c 0 t) (iblk m c 1 t) (iblk m c 2 t) (iblk m c 3 t) y = target m c (((cfg0.win 4).blk t).view.emb y)
  obtain ⟨-, -, -, -, -, -, -, -, -, e0, e1⟩ := idx_facts t
  have hemb : ((cfg0.win 4).blk t).view.emb y = ix2 (rowOf (graphAt t) (y 0)) (y 1) := funext fun a => Fin.ext (by
    match a with
    | ⟨0, _⟩ => show win0_4.index t (0 : Fin 2) * 200 + 1 * (y 0).val = t.val * 200 + (y 0).val; omega
    | ⟨1, _⟩ => show win0_4.index t (1 : Fin 2) * 128 + 1 * (y 1).val = (y 1).val; omega)
  rw [hemb]
  refine (congrArg (k0_pay1 (iblk m c 0 t) (iblk m c 1 t) (iblk m c 2 t) (iblk m c 3 t)) (eq_ix2 y)).trans ?_
  exact Cert.KernelIdeal.Block.block_eq (V m c main_v26) (V m c main_v10) (V m c main_arg1) (V m c main_arg2) (graphAt t)
    (iblk m c 0 t) (iblk m c 1 t) (iblk m c 2 t) (iblk m c 3 t)
    (adj_block m c t) (mask_block m c t) (feat_block m c t) (weight_block m c t) (y 0) (y 1)

/-- An index of the output is in point t's block iff each coordinate is in the block's range on its axis. -/
theorem mem_blk (t : Fin cfg0.N) (i : S6400x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v27).slice (win0_4.rect t)).set ↔ _
  rw [View.set_slice_whole, Rect.mem_set_unit]
  exact Iff.rfl

/-- Every index of the output lies in some point's block: row r in the block of point r / 200. -/
theorem cover (i : S6400x128.Idx) : ∃ t : Fin cfg0.N, (cfg0.win 4).flush t = true ∧ i ∈ ((cfg0.win 4).blk t).view.set := by
  have hi0 : (i 0).val < 6400 := (i 0).isLt
  have hi1 : (i 1).val < 128 := (i 1).isLt
  have hN : cfg0.N = 32 := N_0
  have ht : (i 0).val / 200 < cfg0.N := by rw [hN]; omega
  obtain ⟨-, -, -, -, -, -, -, -, -, e0, e1⟩ := idx_facts ⟨(i 0).val / 200, ht⟩
  refine ⟨⟨(i 0).val / 200, ht⟩, flush0_4 _, ?_⟩
  rw [mem_blk]
  intro a
  match a with
  | ⟨0, _⟩ =>
    show win0_4.index ⟨(i 0).val / 200, ht⟩ (0 : Fin 2) * 200 ≤ (i 0).val ∧ (i 0).val < win0_4.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_4.index ⟨(i 0).val / 200, ht⟩ (1 : Fin 2) * 128 ≤ (i 1).val ∧ (i 1).val < win0_4.index ⟨(i 0).val / 200, ht⟩ (1 : Fin 2) * 128 + 128
    rw [e1]; omega

/-- So the output array ends holding the convolution. -/
theorem final (c : Dev nD) : (dats m 0 c).arrAt 4 cfg0.N = target m c :=
  (dats m 0 c).arrAt_eq_of_cover 4 (target m c) (fun t _ => flushed_eq m c t) cover

/-- The run, read: the result array at the convolution of the arrays the region finds, the arguments unchanged. -/
theorem run : θ_run defs (onTc (τ := τ) (main (F := Ideal))) ⟨m, fun _ => 0, ρ⟩ fun r => ∀ c : Dev nD,
      r.2.mem ((c : Thread nD τ).loc main_v27) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.RegionEntry.lean ====
/-
  The two arrays the host computes before the region: the mask and the gathered adjacency blocks.

  The kernel's program and the reference start with the same operations: the mask (w + wᵀ) / 2 + I from the
  raw edge weights, and the 32 diagonal [200, 200] blocks of the adjacency matrix, gathered at the start indices
  (b, b).  Neither is opened here: each is carried as ONE function of the argument it reads — the reference's own
  stage — and the two programs' terms are the same operations applied to the same argument.
-/
import proofs.«132887_j39565238731020_2_alg».proof.Proof.Gen.KernelIdeal.Frame
import proofs.«132887_j39565238731020_2_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- When the region is entered, the mask's buffer holds the reference's mask stage of the raw edge weights. -/
theorem mask_eq (c : Dev nD) :
    (V m c main_v10 : S200x200.Idx → EReal) = Cert.ReferenceIdeal.Read.val_main_v10 (F := Ideal) (m ((c : Thread nD τ).loc main_arg3)) := by
  dsimp only [Gen.V, Gen.hostOps0]
  after_results
  rfl

/-- When the region is entered, the blocks' buffer holds the reference's gather stage of the adjacency matrix. -/
theorem blocks_eq (c : Dev nD) :
    (V m c main_v26 : S32x200x200.Idx → EReal) = Cert.ReferenceIdeal.Read.val_main_v26 (F := Ideal) (m ((c : Thread nD τ).loc main_arg0)) := by
  dsimp only [Gen.V, Gen.hostOps0]
  after_results_simp
  rfl

end Cert.KernelIdeal.Entry

end
-- ==== Proof.Reference.lean ====
/-
  The reference program computes the block-diagonal graph convolution.

  Its result is read one operation at a time, from the last reshape down to two stages that are left unopened:
  the 32 diagonal blocks gathered out of the adjacency matrix, and the mask.  Row r of the output is entry
  (r / 200, r % 200) of the batched product; that product contracts the gated edge weights — 1 / (1 + exp (−a)),
  which at the ideal values is the logistic of a, times the mask broadcast over the graphs — with the reshaped
  feature product, whose entry (b, j, f) is entry (200 b + j, f) of X W.
-/
import proofs.«132887_j39565238731020_2_alg».proof.Proof.Gen.ReferenceIdeal.Read
import proofs.«132887_j39565238731020_2_alg».proof.Proof.GraphConv
import Idealize.ShloMosaic.Lib.IdealHost

noncomputable section

namespace Cert.ReferenceIdeal.RefValue

open Cert.ReferenceIdeal Cert.ReferenceIdeal.Read Idealize.ShloMosaic Idealize.ShloMosaic.ValueIdx Cert.GraphConv

/-- The gate: 1 / (1 + exp (−a)) of a gathered adjacency entry a is its logistic. -/
theorem gate_apply (x0 : (⟨S6400x6400, .f32⟩ : BufTy).Contents (Elt Ideal)) (i : S32x200x200.Idx) :
    val_main_v32 (F := Ideal) x0 i = Ideal.logistic (val_main_v26 (F := Ideal) x0 i) := by
  rw [val_main_v32_apply, val_main_v31_apply, val_main_cst_5_apply, val_main_v30_apply, val_main_v29_apply,
    val_main_cst_4_apply, val_main_v28_apply, val_main_v27_apply]
  simp only [Ideal.ofBits_def, Ideal.ofBits_one_f32]
  rfl

/-- The mask broadcast over the graphs reads, at (b, p, j), the mask at (p, j). -/
theorem mask_apply (x3 : (⟨S200x200, .f32⟩ : BufTy).Contents (Elt Ideal)) (b : Fin 32) (p j : Fin 200) :
    val_main_v34 (F := Ideal) x3 (ix3 b p j) = val_main_v10 (F := Ideal) x3 (ix2 p j) := by
  rw [val_main_v34_apply, val_main_v33_apply]
  refine congrArg (val_main_v10 (F := Ideal) x3) (funext fun a => Fin.ext ?_)
  match a with
  | ⟨0, _⟩ => rfl
  | ⟨1, _⟩ => rfl

/-- The feature product reshaped by graphs reads, at (b, j, f), entry f of row 200 b + j's transformed features. -/
theorem support_apply (x1 : (⟨S6400x128, .f32⟩ : BufTy).Contents (Elt Ideal)) (x2 : (⟨S128x128, .f32⟩ : BufTy).Contents (Elt Ideal))
    (b : Fin 32) (j : Fin 200) (f : Fin 128) :
    val_main_v37 (F := Ideal) x1 x2 (ix3 b j f) = support x1 x2 (rowOf b j) f := by
  rw [val_main_v37_apply, val_main_v36_apply]
  unfold support
  refine Finset.sum_congr rfl fun k _ => ?_
  have el : lidx_main_v36 (idx_main_v37 (ix3 b j f)) k = ix2 (rowOf b j) k := funext fun a => Fin.ext (by
    match a with
    | ⟨0, _⟩ => show ((b.val * 200 + j.val) * 128 + f.val) / 128 = b.val * 200 + j.val; have := f.isLt; omega
    | ⟨1, _⟩ => rfl)
  have er : ridx_main_v36 (idx_main_v37 (ix3 b j f)) k = ix2 k f := funext fun a => Fin.ext (by
    match a with
    | ⟨0, _⟩ => rfl
    | ⟨1, _⟩ => show ((b.val * 200 + j.val) * 128 + f.val) % 128 = f.val; have := f.isLt; omega)
  rw [el, er]

/-- The reference's result is the convolution of the gathered blocks, the mask, the features and the weights. -/
theorem result_eq (x0 : (⟨S6400x6400, .f32⟩ : BufTy).Contents (Elt Ideal)) (x1 : (⟨S6400x128, .f32⟩ : BufTy).Contents (Elt Ideal))
    (x2 : (⟨S128x128, .f32⟩ : BufTy).Contents (Elt Ideal)) (x3 : (⟨S200x200, .f32⟩ : BufTy).Contents (Elt Ideal)) :
    val_main_v39 (F := Ideal) x0 x1 x2 x3 = conv (val_main_v26 (F := Ideal) x0) (val_main_v10 (F := Ideal) x3) x1 x2 := by
  funext i
  obtain ⟨r, f, rfl⟩ : ∃ (r : Fin 6400) (f : Fin 128), i = ix2 r f := ⟨i 0, i 1, eq_ix2 i⟩
  rw [conv_ix2, val_main_v39_apply, val_main_v38_apply]
  unfold convAt
  refine Finset.sum_congr rfl fun j _ => ?_
  have el : lidx_main_v38 (idx_main_v39 (ix2 r f)) j = ix3 (graphOf r) (nodeOf r) j := funext fun a => Fin.ext (by
    match a with
    | ⟨0, _⟩ => show (r.val * 128 + f.val) / 25600 = r.val / 200; have := f.isLt; omega
    | ⟨1, _⟩ => show (r.val * 128 + f.val) / 128 % 200 = r.val % 200; have := f.isLt; omega
    | ⟨2, _⟩ => rfl)
  have er : ridx_main_v38 (idx_main_v39 (ix2 r f)) j = ix3 (graphOf r) j f := funext fun a => Fin.ext (by
    match a with
    | ⟨0, _⟩ => show (r.val * 128 + f.val) / 25600 = r.val / 200; have := f.isLt; omega
    | ⟨1, _⟩ => rfl
    | ⟨2, _⟩ => show (r.val * 128 + f.val) % 128 = f.val; have := f.isLt; omega)
  rw [el, er, val_main_v35_apply, gate_apply, mask_apply, support_apply]
  rfl

end Cert.ReferenceIdeal.RefValue

end
-- ==== Proof.lean ====
/-
  A dense graph convolution over 32 graphs of 200 nodes, masked by a shared edge-weight matrix: the kernel against
  its reference, at the ideal values (floats extended reals, every operation exact).

  Both programs first form, with the same host operations, the mask (w + wᵀ) / 2 + I and the 32 diagonal
  [200, 200] blocks of the adjacency matrix.  The kernel then works one graph per grid point: it gates the graph's
  adjacency block by the logistic function, multiplies by the mask, forms the graph's 200 rows of X W on the matrix
  unit and multiplies the two.  The reference gates all blocks at once by 1 / (1 + exp (−a)), forms X W whole,
  reshapes it by graphs and contracts graph by graph.  Entry (r, f) of either result, with b = r / 200 and
  p = r % 200, is

      ∑ j < 200, (logistic (A (b, p, j)) · M (p, j)) · ∑ k < 128, X (200 b + j, k) · W (k, f)

  — the same nested sum, term by term (Proof/GraphConv.lean) — so the two results are equal on all extended reals
  and the finiteness of the inputs is never used.  Proof/KernelBlock.lean reads the body's stored value at an index,
  Proof/KernelArray.lean assembles the 32 blocks into the whole output, Proof/RegionEntry.lean names the two arrays
  the host prepares, Proof/Reference.lean reads the reference's result.  The kernel's idealization rewrote nothing,
  so it preserves the kernel trivially; the three frames are the generated ones.
-/
import proofs.«132887_j39565238731020_2_alg».proof.Defs
import proofs.«132887_j39565238731020_2_alg».proof.Proof.Gen.Kernel
import proofs.«132887_j39565238731020_2_alg».proof.Proof.Gen.Kernel.Frame
import proofs.«132887_j39565238731020_2_alg».proof.Proof.Gen.KernelIdeal
import proofs.«132887_j39565238731020_2_alg».proof.Proof.Gen.KernelIdeal.Frame
import proofs.«132887_j39565238731020_2_alg».proof.Proof.Gen.KernelIdeal.Value
import proofs.«132887_j39565238731020_2_alg».proof.Proof.Gen.ReferenceIdeal
import proofs.«132887_j39565238731020_2_alg».proof.Proof.Gen.ReferenceIdeal.Run
import proofs.«132887_j39565238731020_2_alg».proof.Proof.Gen.ReferenceIdeal.Read
import proofs.«132887_j39565238731020_2_alg».proof.Proof.Gen.Pre_finite_inputs
import proofs.«132887_j39565238731020_2_alg».proof.Proof.GraphConv
import proofs.«132887_j39565238731020_2_alg».proof.Proof.KernelArray
import proofs.«132887_j39565238731020_2_alg».proof.Proof.RegionEntry
import proofs.«132887_j39565238731020_2_alg».proof.Proof.Reference
import Idealize.ShloMosaic.Adequacy
import Idealize.ShloMosaic.Init

noncomputable section

namespace Cert.Proof

open Idealize.ShloMosaic Idealize.ShloMosaic.TcCoe Idealize.SL.Sem

/-- The convolution of the arrays the kernel's region finds is the convolution of the reference's two host stages
    of the arguments, the node features and the weights: the host prepared exactly those stages, and left the
    features and the weights as launched. -/
theorem target_eq (m : (ℓ : Loc Cert.KernelIdeal.nD Cert.KernelIdeal.τ Cert.KernelIdeal.sig) → Buf (Elt Ideal) ℓ) (c : Dev Cert.KernelIdeal.nD) :
    Cert.KernelIdeal.Whole.target m c
      = Cert.GraphConv.conv
          (Cert.ReferenceIdeal.Read.val_main_v26 (F := Ideal) (m ((c : Thread Cert.KernelIdeal.nD Cert.KernelIdeal.τ).loc Cert.KernelIdeal.main_arg0)))
          (Cert.ReferenceIdeal.Read.val_main_v10 (F := Ideal) (m ((c : Thread Cert.KernelIdeal.nD Cert.KernelIdeal.τ).loc Cert.KernelIdeal.main_arg3)))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  show Cert.GraphConv.conv _ _ _ _ = _
  rw [Cert.KernelIdeal.Entry.blocks_eq, Cert.KernelIdeal.Entry.mask_eq, Cert.KernelIdeal.Gen.V_main_arg1, Cert.KernelIdeal.Gen.V_main_arg2]

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the convolution of the same four arrays. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq]
  show _ = Cert.KernelIdeal.Whole.target m c
  rw [target_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
